-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S768x768 : Shape := ⟨2, ![768, 768]⟩
abbrev S768 : Shape := ⟨1, ![768]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S16x2048x768 .f32) (main_arg1 : FVec F S16x2048x768 .f32) (main_arg2 : FVec F S768x768 .f32) (main_arg3 : FVec F S768 .f32) (main_arg4 : FVec F S768x768 .f32) (main_arg5 : FVec F S768 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S16x2048x768 .f32 := Host.absf main_arg1
  let main_cst_0 : FVec F S_ .f32 := constant S_ .f32 0x7F800000#32
  let main_v5 : FVec F S16x2048x768 .f32 := broadcastInDim S16x2048x768 ![] bcast_S_S16x2048x768 main_cst_0
  let main_v6 : IVec S16x2048x768 1 := cmpf .olt main_v4 main_v5
  let main_c_1 : IVec S_ 1 := constantI S_ 1 1#1
  let main_v7 : IVec S_ 1 := (fun x v => Host.reduce IntOp.andi x v reducesTo_S16x2048x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S16x2048x768 : Shape := ⟨3, ![16, 2048, 768]⟩
abbrev S768x768 : Shape := ⟨2, ![768, 768]⟩
abbrev S768 : Shape := ⟨1, ![768]⟩
abbrev S1x768 : Shape := ⟨2, ![1, 768]⟩
abbrev S1x2048x768 : Shape := ⟨3, ![1, 2048, 768]⟩
abbrev S16x1x768 : Shape := ⟨3, ![16, 1, 768]⟩
abbrev S2048x768 : Shape := ⟨2, ![2048, 768]⟩
abbrev S1x1x768 : Shape := ⟨3, ![1, 1, 768]⟩

abbrev nBuf : Space → Nat
  | .hbm => 9
  | .vmem => 11
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S1x768, .f32⟩
  | .hbm, ⟨7, _⟩ => ⟨S1x768, .f32⟩
  | .hbm, ⟨8, _⟩ => ⟨S16x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S1x2048x768, .f32⟩
  | .local _ .vmem, ⟨3, _⟩ => ⟨S1x2048x768, .f32⟩
  | .local _ .vmem, ⟨4, _⟩ => ⟨S768x768, .f32⟩
  | .local _ .vmem, ⟨5, _⟩ => ⟨S768x768, .f32⟩
  | .local _ .vmem, ⟨6, _⟩ => ⟨S1x768, .f32⟩
  | .local _ .vmem, ⟨7, _⟩ => ⟨S1x768, .f32⟩
  | .local _ .vmem, ⟨8, _⟩ => ⟨S1x2048x768, .f32⟩
  | .local _ .vmem, ⟨9, _⟩ => ⟨S1x2048x768, .f32⟩
  | .local _ .vmem, ⟨10, _⟩ => ⟨S16x1x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v20 : Index := Scalar.indexCast arg0
  let c0_12 : Index := 0#32
  let c0_13 : Index := 0#32
  ![v20.toNat, 0, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c16_i32_6 : BitVec 32 := 16#32
  let v12 : BitVec 32 := Scalar.subi arg0 c16_i32_6
  let v13 : Index := Scalar.indexCast v12
  let c0_7 : Index := 0#32
  let c0_8 : Index := 0#32
  ![v13.toNat, 0, 0]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S768_S1x768 : S768.ShapeCasts S1x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S2048x768_S768 : S2048x768.Reduces [0] S768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  h_S1x1x768 : 0 < S1x1x768.numel
  shapeCasts_S1x1x768_S1x768 : S1x1x768.ShapeCasts S1x768
  shapeCasts_S1x768_S1x1x768 : S1x768.ShapeCasts S1x1x768
  bitsLt_bf16_f32 : FTy.bits .bf16 < FTy.bits .f32
  broadcasts_S1x768_S2048x768 : S1x768.Broadcasts S2048x768
  shapeCasts_S2048x768_S1x2048x768 : S2048x768.ShapeCasts S1x2048x768
  dot_S1x768_S768x768_S1x768_1_1_0_0_n_n_wf : DotDims.WF S1x768 S768x768 S1x768 [1] [1] [0] [0] [] []
  dot_S2048x768_S768x768_S2048x768_1_1_0_0_n_n_wf : DotDims.WF S2048x768 S768x768 S2048x768 [1] [1] [0] [0] [] []
  hrank0 : 0 < grid0.rank
  k0_off1_inb : ∀ i : grid0.Coords, ∀ (k0_h1 : k0_cond1 i = 1#1), ∀ a, (k0_off1 i) a + S1x1x768.size a ≤ S16x1x768.size a
  k0_off2_inb : ∀ i : grid0.Coords, ∀ (k0_h2 : k0_cond2 i = 1#1), ∀ a, (k0_off2 i) a + S1x1x768.size a ≤ S16x1x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S16x2048x768.size a
  hwx0_0 : ∀ i : grid0.Coords, EltTy.bits .f32 = 32 ∨ (Rect.block (s := S16x2048x768) S1x2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S16x2048x768.size a
  hwx0_1 : ∀ i : grid0.Coords, EltTy.bits .f32 = 32 ∨ (Rect.block (s := S16x2048x768) S1x2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x768.size a ≤ S16x2048x768.size a
  hwx0_6 : ∀ i : grid0.Coords, EltTy.bits .f32 = 32 ∨ (Rect.block (s := S16x2048x768) S1x2048x768.size (cc0_transform_6 i) (hinb0_6 i)).WholeWords (EltTy.packing .f32)

variable [Facts₀]

def dot_S1x768_S768x768_S1x768_1_1_0_0_n_n : DotDims S1x768 S768x768 S1x768 where
  lhsContracting := [1]
  rhsContracting := [1]
  lhsNonContracting := [0]
  rhsNonContracting := [0]
  lhsBatch := []
  rhsBatch := []
  wf := dot_S1x768_S768x768_S1x768_1_1_0_0_n_n_wf
def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf

abbrev win0_0 : Pipeline.Window sig grid0 :=
  Pipeline.Window.ofSpec (Memref.whole main_arg1) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2048x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x2048x768 : Shape := ⟨3, ![16, 2048, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S16x768 : Shape := ⟨2, ![16, 768]⟩
abbrev S16x1x768 : Shape := ⟨3, ![16, 1, 768]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S16x2048x768, .f32⟩
  | .hbm, ⟨7, _⟩ => ⟨S1x1x768, .f32⟩
  | .hbm, ⟨8, _⟩ => ⟨S16x2048x768, .f32⟩
  | .hbm, ⟨9, _⟩ => ⟨S16x2048x768, .f32⟩
  | .hbm, ⟨10, _⟩ => ⟨S16x2048x768, .f32⟩
  | .hbm, ⟨11, _⟩ => ⟨S1x1x768, .f32⟩
  | .hbm, ⟨12, _⟩ => ⟨S16x2048x768, .f32⟩
  | .hbm, ⟨13, _⟩ => ⟨S16x2048x768, .f32⟩
  | .hbm, ⟨14, _⟩ => ⟨S_, .f32⟩
  | .hbm, ⟨15, _⟩ => ⟨S16x768, .f32⟩
  | .hbm, ⟨16, _⟩ => ⟨S16x1x768, .f32⟩
  | .hbm, ⟨17, _⟩ => ⟨S_, .f32⟩
  | .hbm, ⟨18, _⟩ => ⟨S16x1x768, .f32⟩
  | .hbm, ⟨19, _⟩ => ⟨S16x1x768, .f32⟩
  | .hbm, ⟨20, _⟩ => ⟨S16x2048x768, .f32⟩
  | .hbm, ⟨21, _⟩ => ⟨S16x2048x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x2048x768_0_1_2 : S1x1x768.BroadcastsInDim S16x2048x768 (![0, 1, 2] : Fin 3 → Fin S16x2048x768.rank)
  reducesTo_S16x2048x768_S16x768_d1 : S16x2048x768.ReducesTo [1] S16x768
  h_S_ : 0 < S_.numel
  bcast_S16x768_S16x1x768_0_2 : S16x768.BroadcastsInDim S16x1x768 (![0, 2] : Fin 2 → Fin S16x1x768.rank)
  bcast_S_S16x1x768 : S_.BroadcastsInDim S16x1x768 (![] : Fin 0 → Fin S16x1x768.rank)
  bcast_S16x1x768_S16x2048x768_0_1_2 : S16x1x768.BroadcastsInDim S16x2048x768 (![0, 1, 2] : Fin 3 → Fin S16x2048x768.rank)
  dot_S16x2048x768_S768x768_S16x2048x768_2_1_01_0_n_n_wf : DotDims.WF S16x2048x768 S768x768 S16x2048x768 [2] [1] [0, 1] [0] [] []

variable [Facts₀]

def dot_S16x2048x768_S768x768_S16x2048x768_2_1_01_0_n_n : DotDims S16x2048x768 S768x768 S16x2048x768 where
  lhsContracting := [2]
  rhsContracting := [1]
  lhsNonContracting := [0, 1]
  rhsNonContracting := [0]
  lhsBatch := []
  rhsBatch := []
  wf := dot_S16x2048x768_S768x768_S16x2048x768_2_1_01_0_n_n_wf

class Facts : Prop extends Facts₀ where

variable [Facts]
-- ==== Proof.BodyWords.lean ====
/-
  The kernel's grid has 32 points. At point t < 16 (the pooling phase) the body sums the 2048 rows of batch t of
  x2, scales the sum by 2^-11, multiplies by W2 transposed, adds both biases, and stores the resulting row
  into row t of a scratch buffer that the kernel keeps between points. At point t ≥ 16 (the projection phase)
  it multiplies batch t - 16 of x1 by W1 transposed and adds row t - 16 of that scratch to every row, which
  becomes block t - 16 of the output. This module states what the scratch holds before every point (rows
  s < min t 16 hold the pooled row of batch s), proves that the body keeps that statement, and concludes that
  every execution terminates, faults nowhere, leaves the arguments unchanged and leaves each output block at
  the projection of its batch plus the pooled row of its batch. Everything is stated for any float instance.
-/
import proofs.«151728_g82446192214446_feedfinal_392_23_alg».proof.Proof.Gen.Kernel.Frame
import proofs.«151728_g82446192214446_feedfinal_392_23_alg».proof.Proof.Gen.Kernel.Skeleton
import Idealize.ShloMosaic.Lib.WritesUnit
import Idealize.ShloMosaic.Lib.WholeRead

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two phases over the grid, decided once -/

/-- The pooling branch is taken exactly at the first sixteen points. -/
theorem pool_iff : ∀ t : Fin cfg0.N, k0_cond1 (grid0.coords t) = 1#1 ↔ t.val < 16 :=
  (by decide +kernel : ∀ t : Fin grid0.N, k0_cond1 (grid0.coords t) = 1#1 ↔ t.val < 16)

/-- The projection branch is taken exactly at the last sixteen points. -/
theorem proj_iff : ∀ t : Fin cfg0.N, k0_cond2 (grid0.coords t) = 1#1 ↔ 16 ≤ t.val :=
  (by decide +kernel : ∀ t : Fin grid0.N, k0_cond2 (grid0.coords t) = 1#1 ↔ 16 ≤ t.val)

/-- At a pooling point t the scratch row stored is row t. -/
theorem off1_eq : ∀ t : Fin cfg0.N, t.val < 16 → k0_off1 (grid0.coords t) = ![t.val, 0, 0] :=
  (by decide +kernel : ∀ t : Fin grid0.N, t.val < 16 → k0_off1 (grid0.coords t) = ![t.val, 0, 0])

/-- At a projection point t the scratch row loaded is row t - 16. -/
theorem off2_eq : ∀ t : Fin cfg0.N, 16 ≤ t.val → k0_off2 (grid0.coords t) = ![t.val - 16, 0, 0] :=
  (by decide +kernel : ∀ t : Fin grid0.N, 16 ≤ t.val → k0_off2 (grid0.coords t) = ![t.val - 16, 0, 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output window is idle during pooling, -/
theorem idle6 : ∀ t : Fin cfg0.N, t.val < 16 → cfg0.idle 6 (grid0.coords t) = true :=
  (by decide +kernel : ∀ t : Fin grid0.N, t.val < 16 → cfg0.idle 6 (grid0.coords t) = true)
/-- live during projection, -/
theorem live6 : ∀ t : Fin cfg0.N, 16 ≤ t.val → cfg0.idle 6 (grid0.coords t) = false :=
  (by decide +kernel : ∀ t : Fin grid0.N, 16 ≤ t.val → cfg0.idle 6 (grid0.coords t) = false)
/-- and written back exactly at the projection points. -/
theorem flush6 : ∀ t : Fin cfg0.N, (cfg0.win 6).flush t = true ↔ 16 ≤ t.val :=
  (by decide +kernel : ∀ t : Fin grid0.N, win0_6.flush t = true ↔ 16 ≤ t.val)

theorem noflush6 (t : Fin cfg0.N) (h : t.val < 16) : (cfg0.win 6).flush t = false := by
  cases hf : (cfg0.win 6).flush t with
  | false => rfl
  | true => exact absurd ((flush6 t).mp hf) (by omega)

theorem hz3 : (![0, 0, 0] : Fin 3 → ℕ) = fun _ => 0 := by
  funext a; fin_cases a <;> rfl
theorem hz2 : (![0, 0] : Fin 2 → ℕ) = fun _ => 0 := by
  funext a; fin_cases a <;> rfl

/-! ## Loads of whole buffers -/

theorem ldBig {arg : Memref sig .tc .vmem S1x2048x768 .f32} (h : arg.IsWhole) (x : Vec F S1x2048x768 .f32) :
    View.readAt (Elt F) arg.view (Rect.unit (s := S1x2048x768) ![0, 0, 0] S1x2048x768.size inb_S1x2048x768_S1x2048x768_0_0_0).toLoadRect (h.unread x) = x := by
  simp only [View.readAt_eq_ld, h.read_unread, View.ld_unit_zero (S := S1x2048x768) hz3]

theorem ldW {arg : Memref sig .tc .vmem S768x768 .f32} (h : arg.IsWhole) (x : Vec F S768x768 .f32) :
    View.readAt (Elt F) arg.view (Rect.unit (s := S768x768) ![0, 0] S768x768.size inb_S768x768_S768x768_0_0).toLoadRect (h.unread x) = x := by
  simp only [View.readAt_eq_ld, h.read_unread, View.ld_unit_zero (S := S768x768) hz2]

theorem ldB {arg : Memref sig .tc .vmem S1x768 .f32} (h : arg.IsWhole) (x : Vec F S1x768 .f32) :
    View.readAt (Elt F) arg.view (Rect.unit (s := S1x768) ![0, 0] S1x768.size inb_S1x768_S1x768_0_0).toLoadRect (h.unread x) = x := by
  simp only [View.readAt_eq_ld, h.read_unread, View.ld_unit_zero (S := S1x768) hz2]

/-! ## The body, phase by phase, on any staging memrefs -/

set_option maxHeartbeats 1000000 in
/-- POOLING. The inputs and the idle output come back as they were; the scratch comes back with the pooled row of
    the point's blocks stored over one row of what it held. -/
theorem runPool (c : Dev nD) (i : grid0.Coords) (arg1 : Memref sig .tc .vmem S1x2048x768 .f32) (harg1 : arg1.IsWhole) (arg2 : Memref sig .tc .vmem S1x2048x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x2048x768 .f32) (harg7 : arg7.IsWhole) (arg8 : Memref sig .tc .vmem S16x1x768 .f32) (harg8 : arg8.IsWhole) (hc0 : k0_cond1 i = 1#1) (hc1 : ¬ k0_cond2 i = 1#1)
    (x0 : Vec F S1x2048x768 .f32) (x1 : Vec F S1x2048x768 .f32) (x2 : Vec F S768x768 .f32) (x3 : Vec F S768x768 .f32) (x4 : Vec F S1x768 .f32) (x5 : Vec F S1x768 .f32) (x6 : Vec F S1x2048x768 .f32) (xs : Vec F S16x1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ owns (c : Thread nD τ) arg8 fullShare (arg8.view.read (Elt F) (arg8.view.writes (Elt F) (harg8.unread xs)
                    [⟨Rect.unit (s := S16x1x768) (k0_off1 i) S1x1x768.size (k0_off1_inb i hc0), k0_pay1 x0 x3 x4 x5⟩]))) -∗ K ⟨⟩))
          ⊢ wp frame (wpE (defs₀ (F := F)) Variants.none c none) E (cc0_pool_then_proj i arg1 harg1 arg2 harg2 arg3 harg3 arg4 harg4 arg5 harg5 arg6 harg6 arg7 harg7 arg8 harg8) K := by
    intro E K
    simp only [cc0_pool_then_proj_eq_skeleton]; unfold cc0_pool_then_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; swap; · iexact HS0
    ipureintro
    rw [ldBig harg1, ldW harg4, ldB harg5, ldB harg6]

set_option maxHeartbeats 1000000 in
/-- PROJECTION. The inputs and the scratch come back as they were; the output's buffer comes back holding the
    projection of the point's block of x1 plus the scratch row the point loads, whatever it held. -/
theorem runProj (c : Dev nD) (i : grid0.Coords) (arg1 : Memref sig .tc .vmem S1x2048x768 .f32) (harg1 : arg1.IsWhole) (arg2 : Memref sig .tc .vmem S1x2048x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x2048x768 .f32) (harg7 : arg7.IsWhole) (arg8 : Memref sig .tc .vmem S16x1x768 .f32) (harg8 : arg8.IsWhole) (hc0 : ¬ k0_cond1 i = 1#1) (hc1 : k0_cond2 i = 1#1)
    (x0 : Vec F S1x2048x768 .f32) (x1 : Vec F S1x2048x768 .f32) (x2 : Vec F S768x768 .f32) (x3 : Vec F S768x768 .f32) (x4 : Vec F S1x768 .f32) (x5 : Vec F S1x768 .f32) (x6 : Vec F S1x2048x768 .f32) (xs : Vec F S16x1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare (k0_pay2 x1 x2 (View.readAt (Elt F) arg8.view
                    (Rect.unit (s := S16x1x768) (k0_off2 i) S1x1x768.size (k0_off2_inb i hc1)).toLoadRect (harg8.unread xs)))
                ∗ owns (c : Thread nD τ) arg8 fullShare xs) -∗ K ⟨⟩))
          ⊢ wp frame (wpE (defs₀ (F := F)) Variants.none c none) E (cc0_pool_then_proj i arg1 harg1 arg2 harg2 arg3 harg3 arg4 harg4 arg5 harg5 arg6 harg6 arg7 harg7 arg8 harg8) K := by
    intro E K
    simp only [cc0_pool_then_proj_eq_skeleton]; unfold cc0_pool_then_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [View.read_writes_eq_canon _ _ _ (fun y => ⟨_, List.mem_singleton_self _, View.mem_set_unit_zero hz3 inb_S1x2048x768_S1x2048x768_0_0_0 y⟩),
        View.canon_unit_zero hz3, ldBig harg2, ldW harg3]
    iexists _; isplitr; · ipureintro; exact harg8.read_unread _
    iexact HS0

end Cert.Kernel.Body

end
-- ==== Proof.ScratchWords.lean ====
/-
  What the scratch buffer holds between grid points, and the run of the whole program. Before point t the
  rows s < min t 16 of the scratch hold the pooled row of batch s (the row sum of x2's batch s scaled by 2^-11,
  times W2 transposed, plus b1, plus b2); the other rows hold whatever they held. A pooling point stores its
  own row and touches no other; a projection point only reads row t - 16, which is below min t 16. After the
  body at a projection point the output's staging buffer holds the projection of batch t - 16 of x1 plus that
  pooled row, and this is what the pipeline writes back as block t - 16 of the result.
-/
import proofs.«151728_g82446192214446_feedfinal_392_23_alg».proof.Proof.BodyWords

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's scratch, as the memref the body is called with. -/
abbrev scM : Memref sig .tc .vmem S16x1x768 .f32 := Memref.whole cc0_scratch0

/-- The pooled row of point t's blocks: what a pooling point stores into the scratch. -/
def poolRow (c : Dev nD) (t : Fin cfg0.N) : FVec F S1x1x768 .f32 :=
  k0_pay1 (iblk m c 0 t) (iblk m c 3 t) (iblk m c 4 t) (iblk m c 5 t)

/-- Sixteen points earlier (the pooling point of a projection point's batch). -/
def back (t : Fin cfg0.N) : Fin cfg0.N := ⟨t.val - 16, lt_of_le_of_lt (Nat.sub_le _ _) t.isLt⟩

/-- What the body leaves in the output's buffer at a projection point. -/
def outAfter (c : Dev nD) (t : Fin cfg0.N) : Vec F S1x2048x768 .f32 :=
  k0_pay2 (iblk m c 1 t) (iblk m c 2 t) (poolRow m c (back t))

/-- Rows s < min n 16 of the scratch contents X hold the pooled row of batch s. -/
def Filled (c : Dev nD) (n : ℕ) (X : Vec F S16x1x768 .f32) : Prop :=
  ∀ s : Fin cfg0.N, s.val < n → s.val < 16 → ∀ (y : S16x1x768.Idx) (x : S1x1x768.Idx),
    (∀ a, (y a).val = (![s.val, 0, 0] : Fin 3 → ℕ) a + (x a).val) → X y = poolRow m c s x

theorem filled_zero (c : Dev nD) (X : Vec F S16x1x768 .f32) : Filled m c 0 X :=
  fun s hs => absurd hs (Nat.not_lt_zero _)

/-- A pooling point fills its own row and leaves the earlier ones. -/
theorem filled_pool (c : Dev nD) (t : Fin cfg0.N) (h0 : t.val < 16) (arg8 : Memref sig .tc .vmem S16x1x768 .f32) (harg8 : arg8.IsWhole)
    (X : Vec F S16x1x768 .f32) (hX : Filled m c t.val X) :
    Filled m c (t.val + 1) (arg8.view.read (Elt F) (arg8.view.writes (Elt F) (harg8.unread X)
      [⟨Rect.unit (s := S16x1x768) (k0_off1 (grid0.coords t)) S1x1x768.size (k0_off1_inb (grid0.coords t) ((pool_iff t).mpr h0)), poolRow m c t⟩])) := by
  intro s hs hs16 y x hx
  have heq : k0_off1 (grid0.coords t) = ![t.val, 0, 0] := off1_eq t h0
  by_cases hst : s.val = t.val
  · have hst' : s = t := Fin.ext hst
    subst hst'
    exact View.read_writes_cons_unit_of_mem arg8.view (harg8.unread X) _ _ [] y x heq hx
  · have hlt : s.val < t.val := by omega
    have hx0 : (x 0).val < 1 := (x 0).isLt
    have hy0 : (y 0).val = s.val + (x 0).val := hx 0
    rw [View.read_writes_cons_unit_of_not_mem arg8.view (harg8.unread X) _ _ [] y heq 0
      (Or.inl (show (y 0).val < t.val by omega))]
    rw [View.writes_nil, harg8.read_unread]
    exact hX s hlt hs16 y x hx

/-- A projection point stores nothing into the scratch: what held before holds after. -/
theorem filled_mono (c : Dev nD) (n : ℕ) (X : Vec F S16x1x768 .f32) (hX : Filled m c n X) (h : 16 ≤ n) : Filled m c (n + 1) X :=
  fun s _ hs16 => hX s (by omega) hs16

/-- The row a projection point loads is the pooled row of its batch. -/
theorem scratch_row (c : Dev nD) (t : Fin cfg0.N) (h1 : 16 ≤ t.val) (arg8 : Memref sig .tc .vmem S16x1x768 .f32) (harg8 : arg8.IsWhole)
    (X : Vec F S16x1x768 .f32) (hX : Filled m c t.val X) :
    View.readAt (Elt F) arg8.view (Rect.unit (s := S16x1x768) (k0_off2 (grid0.coords t)) S1x1x768.size
      (k0_off2_inb (grid0.coords t) ((proj_iff t).mpr h1))).toLoadRect (harg8.unread X) = poolRow m c (back t) := by
  have hN : t.val < 32 := lt_of_lt_of_eq t.isLt (show cfg0.N = 32 from N_0)
  have heq : k0_off2 (grid0.coords t) = ![t.val - 16, 0, 0] := off2_eq t h1
  funext x
  rw [harg8.readAt_unread]
  refine hX (back t) ?_ ?_ _ x ?_
  · show t.val - 16 < t.val; omega
  · show t.val - 16 < 16; omega
  · intro a
    show (k0_off2 (grid0.coords t)) a + 1 * (x a).val = (![(back t).val, 0, 0] : Fin 3 → ℕ) a + (x a).val
    have h := congrFun heq a
    rw [Nat.one_mul]
    exact congrArg (fun z => z + (x a).val) h

/-! ## The invariant and the proof data -/

/-- Before position n: the scratch at contents whose first min n 16 rows are the pooled rows, and the hardware
    random-number register at some state. -/
def PhiT (c : Dev nD) (n : ℕ) : sProp 𝕄 :=
  iprop((∃ X, ⌜Filled m c n X⌝ ∗ owns (c : Thread nD τ) scM fullShare X) ∗ (∃ r, prngReg c r))

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data: the arrays as the region finds them; after the body each input's buffer at its block and the
    output's at the projection plus the pooled row; the invariant above; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiT m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiT m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAfter m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point keeps the invariant: a pooling point by filling its row, a projection point by reading
    a row already filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiT m c (t.val + 1) from rfl, Phi_castSucc m c t]
  unfold PhiT
  have hN : t.val < 32 := lt_of_lt_of_eq t.isLt (show cfg0.N = 32 from N_0)
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  by_cases h0 : t.val < 16
  · rw [Dat.leavesExact_idle (dats m 0 c) 6 t (idle6 t h0) (noflush6 t h0)]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((runPool c (grid0.coords t) _ _ _ _ _ _ _ _ _ _ _ _ _ _ scM (Memref.isWhole_whole _) ((pool_iff t).mpr h0) (fun h => absurd ((proj_iff t).mp h) (by omega))
      (iblk m c 0 t) (iblk m c 1 t) (iblk m c 2 t) (iblk m c 3 t) (iblk m c 4 t) (iblk m c 5 t) ((dats m 0 c).before 6 t d6) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists _; isplitr; swap; · iexact HS0
        ipureintro; exact filled_pool m c t h0 scM (Memref.isWhole_whole _) X hX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 16 ≤ t.val := by omega
    rw [show (dats m 0 c).leavesExact 6 t = owns (c : Thread nD τ) (st0_6 t) fullShare ((dats m 0 c).after 6 t) from by
      unfold Dat.leavesExact; rw [live6 t h1], after6]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((runProj c (grid0.coords t) _ _ _ _ _ _ _ _ _ _ _ _ _ _ scM (Memref.isWhole_whole _) (fun h => h0 ((pool_iff t).mp h)) ((proj_iff t).mpr h1)
      (iblk m c 0 t) (iblk m c 1 t) (iblk m c 2 t) (iblk m c 3 t) (iblk m c 4 t) (iblk m c 5 t) ((dats m 0 c).before 6 t d6) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists _; isplitr; swap; · iexact HS0
        ipureintro; exact filled_mono m c t.val X hX h1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [scratch_row m c t h1 scM (Memref.isWhole_whole _) X hX]
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch. -/
theorem hin (c : Dev nD) : Pipeline.ΦA spec0 c ⊢ (dats m 0 c).Φ 0 := by
  rw [show (dats m 0 c).Φ 0 = PhiT m c 0 from rfl, PhiA_eq]
  unfold PhiT
  iintro ⟨⟨%d, HS0⟩, Hg⟩
  isplitl [HS0]
  · iexists d; isplitr; swap; · iexact HS0
    ipureintro; exact filled_zero m c d
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨%X, %hX, HS0⟩, Hg⟩
  isplitl [HS0]
  · iexists _; iexact HS0
  iexact Hg

/-! ## The run and the frame -/

set_option backward.isDefEq.respectTransparency.types false in
/-- Every weakly fair execution of the program terminates without a fault; every array of the pipeline ends at
    what the write-backs of the proof data leave, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Body.lean ====
/-
  The kernel's grid has 32 points. At point t < 16 (the pooling phase) the body sums the 2048 rows of batch t of
  x2, scales the sum by 2^-11, multiplies by W2 transposed, adds both biases, and stores the resulting row
  into row t of a scratch buffer that the kernel keeps between points. At point t ≥ 16 (the projection phase)
  it multiplies batch t - 16 of x1 by W1 transposed and adds row t - 16 of that scratch to every row, which
  becomes block t - 16 of the output. This module states what the scratch holds before every point (rows
  s < min t 16 hold the pooled row of batch s), proves that the body keeps that statement, and concludes that
  every execution terminates, faults nowhere, leaves the arguments unchanged and leaves each output block at
  the projection of its batch plus the pooled row of its batch. Everything is stated for any float instance.
-/
import proofs.«151728_g82446192214446_feedfinal_392_23_alg».proof.Proof.Gen.KernelIdeal.Frame
import proofs.«151728_g82446192214446_feedfinal_392_23_alg».proof.Proof.Gen.KernelIdeal.Skeleton
import Idealize.ShloMosaic.Lib.WritesUnit
import Idealize.ShloMosaic.Lib.WholeRead

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two phases over the grid, decided once -/

/-- The pooling branch is taken exactly at the first sixteen points. -/
theorem pool_iff : ∀ t : Fin cfg0.N, k0_cond1 (grid0.coords t) = 1#1 ↔ t.val < 16 :=
  (by decide +kernel : ∀ t : Fin grid0.N, k0_cond1 (grid0.coords t) = 1#1 ↔ t.val < 16)

/-- The projection branch is taken exactly at the last sixteen points. -/
theorem proj_iff : ∀ t : Fin cfg0.N, k0_cond2 (grid0.coords t) = 1#1 ↔ 16 ≤ t.val :=
  (by decide +kernel : ∀ t : Fin grid0.N, k0_cond2 (grid0.coords t) = 1#1 ↔ 16 ≤ t.val)

/-- At a pooling point t the scratch row stored is row t. -/
theorem off1_eq : ∀ t : Fin cfg0.N, t.val < 16 → k0_off1 (grid0.coords t) = ![t.val, 0, 0] :=
  (by decide +kernel : ∀ t : Fin grid0.N, t.val < 16 → k0_off1 (grid0.coords t) = ![t.val, 0, 0])

/-- At a projection point t the scratch row loaded is row t - 16. -/
theorem off2_eq : ∀ t : Fin cfg0.N, 16 ≤ t.val → k0_off2 (grid0.coords t) = ![t.val - 16, 0, 0] :=
  (by decide +kernel : ∀ t : Fin grid0.N, 16 ≤ t.val → k0_off2 (grid0.coords t) = ![t.val - 16, 0, 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output window is idle during pooling, -/
theorem idle6 : ∀ t : Fin cfg0.N, t.val < 16 → cfg0.idle 6 (grid0.coords t) = true :=
  (by decide +kernel : ∀ t : Fin grid0.N, t.val < 16 → cfg0.idle 6 (grid0.coords t) = true)
/-- live during projection, -/
theorem live6 : ∀ t : Fin cfg0.N, 16 ≤ t.val → cfg0.idle 6 (grid0.coords t) = false :=
  (by decide +kernel : ∀ t : Fin grid0.N, 16 ≤ t.val → cfg0.idle 6 (grid0.coords t) = false)
/-- and written back exactly at the projection points. -/
theorem flush6 : ∀ t : Fin cfg0.N, (cfg0.win 6).flush t = true ↔ 16 ≤ t.val :=
  (by decide +kernel : ∀ t : Fin grid0.N, win0_6.flush t = true ↔ 16 ≤ t.val)

theorem noflush6 (t : Fin cfg0.N) (h : t.val < 16) : (cfg0.win 6).flush t = false := by
  cases hf : (cfg0.win 6).flush t with
  | false => rfl
  | true => exact absurd ((flush6 t).mp hf) (by omega)

theorem hz3 : (![0, 0, 0] : Fin 3 → ℕ) = fun _ => 0 := by
  funext a; fin_cases a <;> rfl
theorem hz2 : (![0, 0] : Fin 2 → ℕ) = fun _ => 0 := by
  funext a; fin_cases a <;> rfl

/-! ## Loads of whole buffers -/

theorem ldBig {arg : Memref sig .tc .vmem S1x2048x768 .f32} (h : arg.IsWhole) (x : Vec F S1x2048x768 .f32) :
    View.readAt (Elt F) arg.view (Rect.unit (s := S1x2048x768) ![0, 0, 0] S1x2048x768.size inb_S1x2048x768_S1x2048x768_0_0_0).toLoadRect (h.unread x) = x := by
  simp only [View.readAt_eq_ld, h.read_unread, View.ld_unit_zero (S := S1x2048x768) hz3]

theorem ldW {arg : Memref sig .tc .vmem S768x768 .f32} (h : arg.IsWhole) (x : Vec F S768x768 .f32) :
    View.readAt (Elt F) arg.view (Rect.unit (s := S768x768) ![0, 0] S768x768.size inb_S768x768_S768x768_0_0).toLoadRect (h.unread x) = x := by
  simp only [View.readAt_eq_ld, h.read_unread, View.ld_unit_zero (S := S768x768) hz2]

theorem ldB {arg : Memref sig .tc .vmem S1x768 .f32} (h : arg.IsWhole) (x : Vec F S1x768 .f32) :
    View.readAt (Elt F) arg.view (Rect.unit (s := S1x768) ![0, 0] S1x768.size inb_S1x768_S1x768_0_0).toLoadRect (h.unread x) = x := by
  simp only [View.readAt_eq_ld, h.read_unread, View.ld_unit_zero (S := S1x768) hz2]

/-! ## The body, phase by phase, on any staging memrefs -/

set_option maxHeartbeats 1000000 in
/-- POOLING. The inputs and the idle output come back as they were; the scratch comes back with the pooled row of
    the point's blocks stored over one row of what it held. -/
theorem runPool (c : Dev nD) (i : grid0.Coords) (arg1 : Memref sig .tc .vmem S1x2048x768 .f32) (harg1 : arg1.IsWhole) (arg2 : Memref sig .tc .vmem S1x2048x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x2048x768 .f32) (harg7 : arg7.IsWhole) (arg8 : Memref sig .tc .vmem S16x1x768 .f32) (harg8 : arg8.IsWhole) (hc0 : k0_cond1 i = 1#1) (hc1 : ¬ k0_cond2 i = 1#1)
    (x0 : Vec F S1x2048x768 .f32) (x1 : Vec F S1x2048x768 .f32) (x2 : Vec F S768x768 .f32) (x3 : Vec F S768x768 .f32) (x4 : Vec F S1x768 .f32) (x5 : Vec F S1x768 .f32) (x6 : Vec F S1x2048x768 .f32) (xs : Vec F S16x1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ owns (c : Thread nD τ) arg8 fullShare (arg8.view.read (Elt F) (arg8.view.writes (Elt F) (harg8.unread xs)
                    [⟨Rect.unit (s := S16x1x768) (k0_off1 i) S1x1x768.size (k0_off1_inb i hc0), k0_pay1 x0 x3 x4 x5⟩]))) -∗ K ⟨⟩))
          ⊢ wp frame (wpE (defs₀ (F := F)) Variants.none c none) E (cc0_pool_then_proj i arg1 harg1 arg2 harg2 arg3 harg3 arg4 harg4 arg5 harg5 arg6 harg6 arg7 harg7 arg8 harg8) K := by
    intro E K
    simp only [cc0_pool_then_proj_eq_skeleton]; unfold cc0_pool_then_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; swap; · iexact HS0
    ipureintro
    rw [ldBig harg1, ldW harg4, ldB harg5, ldB harg6]

set_option maxHeartbeats 1000000 in
/-- PROJECTION. The inputs and the scratch come back as they were; the output's buffer comes back holding the
    projection of the point's block of x1 plus the scratch row the point loads, whatever it held. -/
theorem runProj (c : Dev nD) (i : grid0.Coords) (arg1 : Memref sig .tc .vmem S1x2048x768 .f32) (harg1 : arg1.IsWhole) (arg2 : Memref sig .tc .vmem S1x2048x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x2048x768 .f32) (harg7 : arg7.IsWhole) (arg8 : Memref sig .tc .vmem S16x1x768 .f32) (harg8 : arg8.IsWhole) (hc0 : ¬ k0_cond1 i = 1#1) (hc1 : k0_cond2 i = 1#1)
    (x0 : Vec F S1x2048x768 .f32) (x1 : Vec F S1x2048x768 .f32) (x2 : Vec F S768x768 .f32) (x3 : Vec F S768x768 .f32) (x4 : Vec F S1x768 .f32) (x5 : Vec F S1x768 .f32) (x6 : Vec F S1x2048x768 .f32) (xs : Vec F S16x1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare (k0_pay2 x1 x2 (View.readAt (Elt F) arg8.view
                    (Rect.unit (s := S16x1x768) (k0_off2 i) S1x1x768.size (k0_off2_inb i hc1)).toLoadRect (harg8.unread xs)))
                ∗ owns (c : Thread nD τ) arg8 fullShare xs) -∗ K ⟨⟩))
          ⊢ wp frame (wpE (defs₀ (F := F)) Variants.none c none) E (cc0_pool_then_proj i arg1 harg1 arg2 harg2 arg3 harg3 arg4 harg4 arg5 harg5 arg6 harg6 arg7 harg7 arg8 harg8) K := by
    intro E K
    simp only [cc0_pool_then_proj_eq_skeleton]; unfold cc0_pool_then_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      rw [View.read_writes_eq_canon _ _ _ (fun y => ⟨_, List.mem_singleton_self _, View.mem_set_unit_zero hz3 inb_S1x2048x768_S1x2048x768_0_0_0 y⟩),
        View.canon_unit_zero hz3, ldBig harg2, ldW harg3]
    iexists _; isplitr; · ipureintro; exact harg8.read_unread _
    iexact HS0

end Cert.KernelIdeal.Body

end
-- ==== Proof.Scratch.lean ====
/-
  What the scratch buffer holds between grid points, and the run of the whole program. Before point t the
  rows s < min t 16 of the scratch hold the pooled row of batch s (the row sum of x2's batch s scaled by 2^-11,
  times W2 transposed, plus b1, plus b2); the other rows hold whatever they held. A pooling point stores its
  own row and touches no other; a projection point only reads row t - 16, which is below min t 16. After the
  body at a projection point the output's staging buffer holds the projection of batch t - 16 of x1 plus that
  pooled row, and this is what the pipeline writes back as block t - 16 of the result.
-/
import proofs.«151728_g82446192214446_feedfinal_392_23_alg».proof.Proof.Body

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's scratch, as the memref the body is called with. -/
abbrev scM : Memref sig .tc .vmem S16x1x768 .f32 := Memref.whole cc0_scratch0

/-- The pooled row of point t's blocks: what a pooling point stores into the scratch. -/
def poolRow (c : Dev nD) (t : Fin cfg0.N) : FVec F S1x1x768 .f32 :=
  k0_pay1 (iblk m c 0 t) (iblk m c 3 t) (iblk m c 4 t) (iblk m c 5 t)

/-- Sixteen points earlier (the pooling point of a projection point's batch). -/
def back (t : Fin cfg0.N) : Fin cfg0.N := ⟨t.val - 16, lt_of_le_of_lt (Nat.sub_le _ _) t.isLt⟩

/-- What the body leaves in the output's buffer at a projection point. -/
def outAfter (c : Dev nD) (t : Fin cfg0.N) : Vec F S1x2048x768 .f32 :=
  k0_pay2 (iblk m c 1 t) (iblk m c 2 t) (poolRow m c (back t))

/-- Rows s < min n 16 of the scratch contents X hold the pooled row of batch s. -/
def Filled (c : Dev nD) (n : ℕ) (X : Vec F S16x1x768 .f32) : Prop :=
  ∀ s : Fin cfg0.N, s.val < n → s.val < 16 → ∀ (y : S16x1x768.Idx) (x : S1x1x768.Idx),
    (∀ a, (y a).val = (![s.val, 0, 0] : Fin 3 → ℕ) a + (x a).val) → X y = poolRow m c s x

theorem filled_zero (c : Dev nD) (X : Vec F S16x1x768 .f32) : Filled m c 0 X :=
  fun s hs => absurd hs (Nat.not_lt_zero _)

/-- A pooling point fills its own row and leaves the earlier ones. -/
theorem filled_pool (c : Dev nD) (t : Fin cfg0.N) (h0 : t.val < 16) (arg8 : Memref sig .tc .vmem S16x1x768 .f32) (harg8 : arg8.IsWhole)
    (X : Vec F S16x1x768 .f32) (hX : Filled m c t.val X) :
    Filled m c (t.val + 1) (arg8.view.read (Elt F) (arg8.view.writes (Elt F) (harg8.unread X)
      [⟨Rect.unit (s := S16x1x768) (k0_off1 (grid0.coords t)) S1x1x768.size (k0_off1_inb (grid0.coords t) ((pool_iff t).mpr h0)), poolRow m c t⟩])) := by
  intro s hs hs16 y x hx
  have heq : k0_off1 (grid0.coords t) = ![t.val, 0, 0] := off1_eq t h0
  by_cases hst : s.val = t.val
  · have hst' : s = t := Fin.ext hst
    subst hst'
    exact View.read_writes_cons_unit_of_mem arg8.view (harg8.unread X) _ _ [] y x heq hx
  · have hlt : s.val < t.val := by omega
    have hx0 : (x 0).val < 1 := (x 0).isLt
    have hy0 : (y 0).val = s.val + (x 0).val := hx 0
    rw [View.read_writes_cons_unit_of_not_mem arg8.view (harg8.unread X) _ _ [] y heq 0
      (Or.inl (show (y 0).val < t.val by omega))]
    rw [View.writes_nil, harg8.read_unread]
    exact hX s hlt hs16 y x hx

/-- A projection point stores nothing into the scratch: what held before holds after. -/
theorem filled_mono (c : Dev nD) (n : ℕ) (X : Vec F S16x1x768 .f32) (hX : Filled m c n X) (h : 16 ≤ n) : Filled m c (n + 1) X :=
  fun s _ hs16 => hX s (by omega) hs16

/-- The row a projection point loads is the pooled row of its batch. -/
theorem scratch_row (c : Dev nD) (t : Fin cfg0.N) (h1 : 16 ≤ t.val) (arg8 : Memref sig .tc .vmem S16x1x768 .f32) (harg8 : arg8.IsWhole)
    (X : Vec F S16x1x768 .f32) (hX : Filled m c t.val X) :
    View.readAt (Elt F) arg8.view (Rect.unit (s := S16x1x768) (k0_off2 (grid0.coords t)) S1x1x768.size
      (k0_off2_inb (grid0.coords t) ((proj_iff t).mpr h1))).toLoadRect (harg8.unread X) = poolRow m c (back t) := by
  have hN : t.val < 32 := lt_of_lt_of_eq t.isLt (show cfg0.N = 32 from N_0)
  have heq : k0_off2 (grid0.coords t) = ![t.val - 16, 0, 0] := off2_eq t h1
  funext x
  rw [harg8.readAt_unread]
  refine hX (back t) ?_ ?_ _ x ?_
  · show t.val - 16 < t.val; omega
  · show t.val - 16 < 16; omega
  · intro a
    show (k0_off2 (grid0.coords t)) a + 1 * (x a).val = (![(back t).val, 0, 0] : Fin 3 → ℕ) a + (x a).val
    have h := congrFun heq a
    rw [Nat.one_mul]
    exact congrArg (fun z => z + (x a).val) h

/-! ## The invariant and the proof data -/

/-- Before position n: the scratch at contents whose first min n 16 rows are the pooled rows, and the hardware
    random-number register at some state. -/
def PhiT (c : Dev nD) (n : ℕ) : sProp 𝕄 :=
  iprop((∃ X, ⌜Filled m c n X⌝ ∗ owns (c : Thread nD τ) scM fullShare X) ∗ (∃ r, prngReg c r))

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data: the arrays as the region finds them; after the body each input's buffer at its block and the
    output's at the projection plus the pooled row; the invariant above; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiT m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiT m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAfter m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point keeps the invariant: a pooling point by filling its row, a projection point by reading
    a row already filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiT m c (t.val + 1) from rfl, Phi_castSucc m c t]
  unfold PhiT
  have hN : t.val < 32 := lt_of_lt_of_eq t.isLt (show cfg0.N = 32 from N_0)
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  rw [show (dats m 0 c).leavesExact 5 t = owns (c : Thread nD τ) (st0_5 t) fullShare ((dats m 0 c).after 5 t) from by
    unfold Dat.leavesExact; rw [live5 t], after5]
  by_cases h0 : t.val < 16
  · rw [Dat.leavesExact_idle (dats m 0 c) 6 t (idle6 t h0) (noflush6 t h0)]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((runPool c (grid0.coords t) _ _ _ _ _ _ _ _ _ _ _ _ _ _ scM (Memref.isWhole_whole _) ((pool_iff t).mpr h0) (fun h => absurd ((proj_iff t).mp h) (by omega))
      (iblk m c 0 t) (iblk m c 1 t) (iblk m c 2 t) (iblk m c 3 t) (iblk m c 4 t) (iblk m c 5 t) ((dats m 0 c).before 6 t d6) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists _; isplitr; swap; · iexact HS0
        ipureintro; exact filled_pool m c t h0 scM (Memref.isWhole_whole _) X hX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 16 ≤ t.val := by omega
    rw [show (dats m 0 c).leavesExact 6 t = owns (c : Thread nD τ) (st0_6 t) fullShare ((dats m 0 c).after 6 t) from by
      unfold Dat.leavesExact; rw [live6 t h1], after6]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((runProj c (grid0.coords t) _ _ _ _ _ _ _ _ _ _ _ _ _ _ scM (Memref.isWhole_whole _) (fun h => h0 ((pool_iff t).mp h)) ((proj_iff t).mpr h1)
      (iblk m c 0 t) (iblk m c 1 t) (iblk m c 2 t) (iblk m c 3 t) (iblk m c 4 t) (iblk m c 5 t) ((dats m 0 c).before 6 t d6) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexists _; isplitr; swap; · iexact HS0
        ipureintro; exact filled_mono m c t.val X hX h1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [scratch_row m c t h1 scM (Memref.isWhole_whole _) X hX]
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch. -/
theorem hin (c : Dev nD) : Pipeline.ΦA spec0 c ⊢ (dats m 0 c).Φ 0 := by
  rw [show (dats m 0 c).Φ 0 = PhiT m c 0 from rfl, PhiA_eq]
  unfold PhiT
  iintro ⟨⟨%d, HS0⟩, Hg⟩
  isplitl [HS0]
  · iexists d; isplitr; swap; · iexact HS0
    ipureintro; exact filled_zero m c d
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨%X, %hX, HS0⟩, Hg⟩
  isplitl [HS0]
  · iexists _; iexact HS0
  iexact Hg

/-! ## The run and the frame -/

set_option backward.isDefEq.respectTransparency.types false in
/-- Every weakly fair execution of the program terminates without a fault; every array of the pipeline ends at
    what the write-backs of the proof data leave, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.Payload.lean ====
/-
  The two stores of the kernel body read at an index, at the ideal instance.

  The pooling store: the block of x2 (2048 rows of 768) is summed down its rows, the 768 sums are scaled by 2^-11,
  the scaled row is multiplied by W2 transposed (entry e is the sum over d of row[d] · W2[e, d]), and the two bias
  rows are added. The projection store: the block of x1 times W1 transposed (entry (r, e) is the sum over d of
  x1[r, d] · W1[e, d]; rounding both factors to a narrower format changes nothing at this instance), plus the
  scratch row at e, the same for every r.
-/
import proofs.«151728_g82446192214446_feedfinal_392_23_alg».proof.Proof.Gen.KernelIdeal.Skeleton
import proofs.«151728_g82446192214446_feedfinal_392_23_alg».proof.Proof.LibDotRows
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A sum down the rows of an [a, b] matrix from the zero accumulator, read at column y, is the sum over the rows k
    of the entry (k, y). -/
theorem colsum_at {a b : ℕ} (src : FVec Ideal ⟨2, ![a, b]⟩ .f32)
    (h : (⟨2, ![a, b]⟩ : Shape).Reduces [0] (⟨1, ![b]⟩ : Shape)) (hφ : FKind.Formats FTy.f32)
    (hacc : (0x00000000#32 : BitVec 32) = FKind.add.neutral FTy.f32 hφ) (y : Fin b) :
    multiReduction .add [0] (⟨1, ![b]⟩ : Shape) src 0x00000000#32 h hφ hacc (ix1 y) = ∑ k : Fin a, src (ix2 k y) := by
  refine (Ideal.multiReduction_add_single src 0x00000000#32 h hφ hacc (ix1 y)).trans ?_
  refine Finset.sum_congr rfl fun k _ => congrArg src ?_
  funext c; apply Fin.ext
  fin_cases c <;> rfl

/-! ## Where the two products' dimension records send an output index and a contraction position -/

theorem rowW_l0 (i : S1x768.Idx) (q : dot_S1x768_S768x768_S1x768_1_1_0_0_n_n.contr.Idx) : (dot_S1x768_S768x768_S1x768_1_1_0_0_n_n.lhsIdx i q 0).val = (i 0).val := by
  unfold DotDims.lhsIdx
  rw [dif_neg (show ¬(0 : Fin S1x768.rank) ∈ dot_S1x768_S768x768_S1x768_1_1_0_0_n_n.lhsBatch by decide), dif_pos (show (0 : Fin S1x768.rank) ∈ dot_S1x768_S768x768_S1x768_1_1_0_0_n_n.lhsNonContracting by decide)]
  rfl
theorem rowW_l1 (i : S1x768.Idx) (q : dot_S1x768_S768x768_S1x768_1_1_0_0_n_n.contr.Idx) : (dot_S1x768_S768x768_S1x768_1_1_0_0_n_n.lhsIdx i q 1).val = (q ⟨0, by decide⟩).val :=
  dot_S1x768_S768x768_S1x768_1_1_0_0_n_n.lhsIdx_val_of_single rfl i q
theorem rowW_r0 (i : S1x768.Idx) (q : dot_S1x768_S768x768_S1x768_1_1_0_0_n_n.contr.Idx) : (dot_S1x768_S768x768_S1x768_1_1_0_0_n_n.rhsIdx i q 0).val = (i 1).val := by
  unfold DotDims.rhsIdx
  rw [dif_neg (show ¬(0 : Fin S768x768.rank) ∈ dot_S1x768_S768x768_S1x768_1_1_0_0_n_n.rhsBatch by decide), dif_pos (show (0 : Fin S768x768.rank) ∈ dot_S1x768_S768x768_S1x768_1_1_0_0_n_n.rhsNonContracting by decide)]
  rfl
theorem rowW_r1 (i : S1x768.Idx) (q : dot_S1x768_S768x768_S1x768_1_1_0_0_n_n.contr.Idx) : (dot_S1x768_S768x768_S1x768_1_1_0_0_n_n.rhsIdx i q 1).val = (q ⟨0, by decide⟩).val :=
  dot_S1x768_S768x768_S1x768_1_1_0_0_n_n.rhsIdx_val_of_single rfl i q

theorem blkW_l0 (i : S2048x768.Idx) (q : dot_S2048x768_S768x768_S2048x768_1_1_0_0_n_n.contr.Idx) : (dot_S2048x768_S768x768_S2048x768_1_1_0_0_n_n.lhsIdx i q 0).val = (i 0).val := by
  unfold DotDims.lhsIdx
  rw [dif_neg (show ¬(0 : Fin S2048x768.rank) ∈ dot_S2048x768_S768x768_S2048x768_1_1_0_0_n_n.lhsBatch by decide), dif_pos (show (0 : Fin S2048x768.rank) ∈ dot_S2048x768_S768x768_S2048x768_1_1_0_0_n_n.lhsNonContracting by decide)]
  rfl
theorem blkW_l1 (i : S2048x768.Idx) (q : dot_S2048x768_S768x768_S2048x768_1_1_0_0_n_n.contr.Idx) : (dot_S2048x768_S768x768_S2048x768_1_1_0_0_n_n.lhsIdx i q 1).val = (q ⟨0, by decide⟩).val :=
  dot_S2048x768_S768x768_S2048x768_1_1_0_0_n_n.lhsIdx_val_of_single rfl i q
theorem blkW_r0 (i : S2048x768.Idx) (q : dot_S2048x768_S768x768_S2048x768_1_1_0_0_n_n.contr.Idx) : (dot_S2048x768_S768x768_S2048x768_1_1_0_0_n_n.rhsIdx i q 0).val = (i 1).val := by
  unfold DotDims.rhsIdx
  rw [dif_neg (show ¬(0 : Fin S768x768.rank) ∈ dot_S2048x768_S768x768_S2048x768_1_1_0_0_n_n.rhsBatch by decide), dif_pos (show (0 : Fin S768x768.rank) ∈ dot_S2048x768_S768x768_S2048x768_1_1_0_0_n_n.rhsNonContracting by decide)]
  rfl
theorem blkW_r1 (i : S2048x768.Idx) (q : dot_S2048x768_S768x768_S2048x768_1_1_0_0_n_n.contr.Idx) : (dot_S2048x768_S768x768_S2048x768_1_1_0_0_n_n.rhsIdx i q 1).val = (q ⟨0, by decide⟩).val :=
  dot_S2048x768_S768x768_S2048x768_1_1_0_0_n_n.rhsIdx_val_of_single rfl i q

/-! ## The two stores at an index -/

/-- The pooling store at feature e: the row sums of the block scaled by 2^-11, against row e of the weight, plus
    the two biases at e. -/
theorem pay1_at (v6 : Vec Ideal S1x2048x768 .f32) (v12 : Vec Ideal S768x768 .f32) (v14 v17 : Vec Ideal S1x768 .f32)
    (u v : Fin 1) (e : Fin 768) :
    k0_pay1 v6 v12 v14 v17 (ix3 u v e)
      = ((∑ d : Fin 768, ((∑ l : Fin 2048, v6 (ix3 (0 : Fin 1) l d)) * Ideal.ofBits .f32 0x3A000000#32) * v12 (ix2 e d))
          + v14 (ix2 v e)) + v17 (ix2 v e) := by
  unfold k0_pay1
  dsimp only
  refine (shapeCast_ab_1ab_apply _ shapeCasts_S1x768_S1x1x768 u v e).trans ?_
  rw [shapeCast_self v14, shapeCast_self v17]
  show (_ + v14 (ix2 v e)) + v17 (ix2 v e) = _
  refine congrArg (fun z => (z + v14 (ix2 v e)) + v17 (ix2 v e)) ?_
  refine (Cert.LibDotRows.matmul_zero_at dot_S1x768_S768x768_S1x768_1_1_0_0_n_n none rfl rfl rowW_l0 rowW_l1 rowW_r0 rowW_r1 _ v12 v e).trans ?_
  refine Finset.sum_congr rfl fun d _ => ?_
  refine congrArg (fun z => z * v12 (ix2 e d)) ?_
  show _ * Ideal.ofBits .f32 0x3A000000#32 = _
  refine congrArg (fun z => z * Ideal.ofBits .f32 0x3A000000#32) ?_
  refine (shapeCast_a_1a_apply _ shapeCasts_S768_S1x768 v d).trans ?_
  refine (colsum_at _ reduces_S2048x768_S768 _ _ d).trans ?_
  refine Finset.sum_congr rfl fun l _ => ?_
  exact shapeCast_1ab_ab_apply v6 shapeCasts_S1x2048x768_S2048x768 l d

/-- The projection store at row r and feature e: row r of the block against row e of the weight, plus the scratch
    row at e. -/
theorem pay2_at (v6 : Vec Ideal S1x2048x768 .f32) (v9 : Vec Ideal S768x768 .f32) (v14 : Vec Ideal S1x1x768 .f32)
    (u : Fin 1) (r : Fin 2048) (e : Fin 768) :
    k0_pay2 v6 v9 v14 (ix3 u r e)
      = (∑ d : Fin 768, v6 (ix3 (0 : Fin 1) r d) * v9 (ix2 e d)) + v14 (ix3 (0 : Fin 1) (0 : Fin 1) e) := by
  unfold k0_pay2
  refine (shapeCast_ab_1ab_apply _ shapeCasts_S2048x768_S1x2048x768 u r e).trans ?_
  show _ + _ = _
  refine congrArg₂ (fun a b => a + b) ?_ ?_
  · refine (Cert.LibDotRows.matmul_zero_at dot_S2048x768_S768x768_S2048x768_1_1_0_0_n_n none rfl rfl blkW_l0 blkW_l1 blkW_r0 blkW_r1 _ _ r e).trans ?_
    refine Finset.sum_congr rfl fun d _ => ?_
    show shapeCast S2048x768 v6 shapeCasts_S1x2048x768_S2048x768 (ix2 r d) * v9 (ix2 e d) = _
    rw [shapeCast_1ab_ab_apply v6 shapeCasts_S1x2048x768_S2048x768 r d]
  · refine (broadcastTo_1b_ab_apply _ broadcasts_S1x768_S2048x768 r e).trans ?_
    exact shapeCast_1ab_ab_apply v14 shapeCasts_S1x1x768_S1x768 (0 : Fin 1) e

end Cert.KernelIdeal.Payload

end
-- ==== Proof.Pooled.lean ====
/-
  The mathematics of the claim, with no program in sight.

  Both programs compute, for a batch b, a row r and an output feature e,
      x1[b, r, :] · W1[e, :]  +  b1[e]  +  the mean over the 2048 rows l of ( x2[b, l, :] · W2[e, :] + b2[e] ).
  The reference takes the mean last: it forms every row's product, adds the bias to each, sums the 2048 rows and
  divides by 2048. The kernel takes the mean first: it sums the 2048 rows of x2, scales the sum by 2^-11, multiplies
  the one averaged row by W2, and adds b1 and b2 once. Over the real numbers the two agree because a finite sum
  may be exchanged with a product by a constant and with another finite sum, because the bias summed 2048 times
  and divided by 2048 is the bias, and because 2^-11 is exactly 1/2048. On the extended reals those laws fail at
  infinities, so the agreement is proved for arrays all of whose entries are real numbers.
-/
import Idealize.ShloMosaic.PureOps.Ideal
import Idealize.ShloMosaic.PureOps.Ideal.Laws
import Idealize.ShloMosaic.Lib.ValueIdx

noncomputable section

namespace Cert.Pooled

open Idealize.ShloMosaic Idealize.ShloMosaic.ValueIdx

/-- The kernel's scale is exactly 1/2048. -/
theorem scale_eq : Ideal.ofBits .f32 0x3A000000#32 = ((1 / 2048 : ℝ) : EReal) := by
  simp [Ideal.ofBits, Ideal.ieee, -EReal.coe_mul]; norm_num

/-- The reference's divisor is exactly 2048. -/
theorem count_eq : Ideal.ofBits .f32 0x45000000#32 = ((2048 : ℝ) : EReal) := by
  simp [Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: the mean of the biased row products is the product of the mean row, plus the bias. -/
theorem mean_first (a b1 b2 : ℝ) (x : Fin 2048 → Fin 768 → ℝ) (w : Fin 768 → ℝ) :
    a + (((∑ d, ((∑ l, x l d) * (1 / 2048)) * w d) + b1) + b2)
      = (a + b1) + (∑ l, ((∑ d, x l d * w d) + b2)) * (1 / 2048) := by
  have h1 : ∑ l : Fin 2048, ((∑ d, x l d * w d) + b2) = (∑ l, ∑ d, x l d * w d) + 2048 * b2 := by
    rw [Finset.sum_add_distrib, Finset.sum_const, Finset.card_univ, Fintype.card_fin, nsmul_eq_mul]; norm_num
  have h2 : ∑ d, ((∑ l, x l d) * (1 / 2048)) * w d = (∑ l, ∑ d, x l d * w d) * (1 / 2048) := by
    simp only [Finset.sum_mul]
    rw [Finset.sum_comm]
    exact Finset.sum_congr rfl fun l _ => Finset.sum_congr rfl fun d _ => by ring
  rw [h1, h2]; ring

variable (x1 x2 : (⟨3, ![16, 2048, 768]⟩ : Shape).Idx → EReal) (W1 W2 : (⟨2, ![768, 768]⟩ : Shape).Idx → EReal)
  (b1 b2 : (⟨1, ![768]⟩ : Shape).Idx → EReal)

/-- The kernel's arrangement, at batch b, row r, feature e. -/
def fusedAt (b : Fin 16) (r : Fin 2048) (e : Fin 768) : EReal :=
  (∑ d : Fin 768, x1 (ix3 b r d) * W1 (ix2 e d))
    + (((∑ d : Fin 768, ((∑ l : Fin 2048, x2 (ix3 b l d)) * Ideal.ofBits .f32 0x3A000000#32) * W2 (ix2 e d))
        + b1 (ix1 e)) + b2 (ix1 e))

/-- The reference's arrangement, at batch b, row r, feature e. -/
def plainAt (b : Fin 16) (r : Fin 2048) (e : Fin 768) : EReal :=
  ((∑ d : Fin 768, x1 (ix3 b r d) * W1 (ix2 e d)) + b1 (ix1 e))
    + Ideal.div (Ideal.ofBits .f32 0x00000000#32
        + ∑ l : Fin 2048, ((∑ d : Fin 768, x2 (ix3 b l d) * W2 (ix2 e d)) + b2 (ix1 e)))
      (Ideal.ofBits .f32 0x45000000#32)

/-- On arrays of real numbers the two arrangements agree. -/
theorem fused_eq_plain (hx1 : ∀ i, ∃ v : ℝ, x1 i = v) (hx2 : ∀ i, ∃ v : ℝ, x2 i = v)
    (hW1 : ∀ i, ∃ v : ℝ, W1 i = v) (hW2 : ∀ i, ∃ v : ℝ, W2 i = v)
    (hb1 : ∀ i, ∃ v : ℝ, b1 i = v) (hb2 : ∀ i, ∃ v : ℝ, b2 i = v)
    (b : Fin 16) (r : Fin 2048) (e : Fin 768) :
    fusedAt x1 x2 W1 W2 b1 b2 b r e = plainAt x1 x2 W1 W2 b1 b2 b r e := by
  choose x1' hx1 using hx1
  choose x2' hx2 using hx2
  choose W1' hW1 using hW1
  choose W2' hW2 using hW2
  choose b1' hb1 using hb1
  choose b2' hb2 using hb2
  unfold fusedAt plainAt
  simp only [hx1, hx2, hW1, hW2, hb1, hb2]
  rw [scale_eq, count_eq, Ideal.ofBits_zero_f32, zero_add, Ideal.div_coe (by norm_num : (2048 : ℝ) ≠ 0)]
  simp only [← EReal.coe_mul, ← coe_sum, ← EReal.coe_add]
  exact congrArg _ (mean_first _ (b1' (ix1 e)) (b2' (ix1 e)) (fun l d => x2' (ix3 b l d)) (fun d => W2' (ix2 e d)))

end Cert.Pooled

end
-- ==== Proof.Result.lean ====
/-
  From blocks to the whole result. Point t ≥ 16 writes back block t - 16 of the output, and that block holds, at
  row r and feature e, the kernel's arrangement of the mathematics at batch t - 16: the block of x1 it projects is
  batch t - 16 of x1, the scratch row it adds was pooled at point t - 16 from batch t - 16 of x2, the weights are
  whole arrays, and the two bias rows are the bias vectors given a leading unit axis before the kernel starts. The
  sixteen blocks tile the output, so the output ends as that arrangement everywhere.
-/
import proofs.«151728_g82446192214446_feedfinal_392_23_alg».proof.Proof.Scratch
import proofs.«151728_g82446192214446_feedfinal_392_23_alg».proof.Proof.Payload
import proofs.«151728_g82446192214446_feedfinal_392_23_alg».proof.Proof.Pooled
import Idealize.ShloMosaic.Lib.StableHlo.Run

set_option maxRecDepth 16384

noncomputable section

namespace Cert.KernelIdeal.Result

open Cert.KernelIdeal Cert.KernelIdeal.Gen Cert.KernelIdeal.Body Cert.KernelIdeal.Payload
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## Which block each window holds at each point, decided over the grid -/

theorem idx_x2 : ∀ t : Fin cfg0.N, t.val < 16 → win0_0.index t (0 : Fin 3) = t.val ∧ win0_0.index t (1 : Fin 3) = 0 ∧ win0_0.index t (2 : Fin 3) = 0 :=
  (by decide +kernel : ∀ t : Fin grid0.N, t.val < 16 → win0_0.index t (0 : Fin 3) = t.val ∧ win0_0.index t (1 : Fin 3) = 0 ∧ win0_0.index t (2 : Fin 3) = 0)
theorem idx_x1 : ∀ t : Fin cfg0.N, 16 ≤ t.val → win0_1.index t (0 : Fin 3) = t.val - 16 ∧ win0_1.index t (1 : Fin 3) = 0 ∧ win0_1.index t (2 : Fin 3) = 0 :=
  (by decide +kernel : ∀ t : Fin grid0.N, 16 ≤ t.val → win0_1.index t (0 : Fin 3) = t.val - 16 ∧ win0_1.index t (1 : Fin 3) = 0 ∧ win0_1.index t (2 : Fin 3) = 0)
theorem idx_out : ∀ t : Fin cfg0.N, 16 ≤ t.val → win0_6.index t (0 : Fin 3) = t.val - 16 ∧ win0_6.index t (1 : Fin 3) = 0 ∧ win0_6.index t (2 : Fin 3) = 0 :=
  (by decide +kernel : ∀ t : Fin grid0.N, 16 ≤ t.val → win0_6.index t (0 : Fin 3) = t.val - 16 ∧ win0_6.index t (1 : Fin 3) = 0 ∧ win0_6.index t (2 : Fin 3) = 0)
theorem idx_w1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w2 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_b1 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_b2 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The bias rows the region finds: the bias vectors with a leading unit axis -/

theorem row_b1 (c : Dev nD) : (V m c main_v0 : S1x768.Idx → EReal) = shapeCast S1x768 (m ((c : Thread nD τ).loc main_arg3)) shapeCasts_S768_S1x768 := by
  dsimp only [Gen.V, Gen.hostOps0]; after_results; rfl

theorem row_b2 (c : Dev nD) : (V m c main_v1 : S1x768.Idx → EReal) = shapeCast S1x768 (m ((c : Thread nD τ).loc main_arg5)) shapeCasts_S768_S1x768 := by
  dsimp only [Gen.V, Gen.hostOps0]; after_results; rfl

/-! ## The blocks read at coordinates -/

theorem blk_x1 (c : Dev nD) (t : Fin cfg0.N) (h1 : 16 ≤ t.val) (b : Fin 16) (hb : b.val = t.val - 16) (r : Fin 2048) (d : Fin 768) :
    (iblk m c 1 t : S1x2048x768.Idx → EReal) (ix3 (0 : Fin 1) r d) = m ((c : Thread nD τ).loc main_arg0) (ix3 b r d) := by
  rw [← V_main_arg0 m c]
  show V m c main_arg0 (((cfg0.win 1).blk t).view.emb (ix3 (0 : Fin 1) r d)) = V m c main_arg0 (ix3 b r d)
  refine congrArg (V m c main_arg0) (funext fun a => Fin.ext ?_)
  obtain ⟨e0, e1, e2⟩ := idx_x1 t h1
  match a with
  | ⟨0, _⟩ => show win0_1.index t (0 : Fin 3) * 1 + 1 * 0 = b.val; omega
  | ⟨1, _⟩ => show win0_1.index t (1 : Fin 3) * 2048 + 1 * r.val = r.val; omega
  | ⟨2, _⟩ => show win0_1.index t (2 : Fin 3) * 768 + 1 * d.val = d.val; omega

theorem blk_x2 (c : Dev nD) (s : Fin cfg0.N) (h0 : s.val < 16) (b : Fin 16) (hb : b.val = s.val) (l : Fin 2048) (d : Fin 768) :
    (iblk m c 0 s : S1x2048x768.Idx → EReal) (ix3 (0 : Fin 1) l d) = m ((c : Thread nD τ).loc main_arg1) (ix3 b l d) := by
  rw [← V_main_arg1 m c]
  show V m c main_arg1 (((cfg0.win 0).blk s).view.emb (ix3 (0 : Fin 1) l d)) = V m c main_arg1 (ix3 b l d)
  refine congrArg (V m c main_arg1) (funext fun a => Fin.ext ?_)
  obtain ⟨e0, e1, e2⟩ := idx_x2 s h0
  match a with
  | ⟨0, _⟩ => show win0_0.index s (0 : Fin 3) * 1 + 1 * 0 = b.val; omega
  | ⟨1, _⟩ => show win0_0.index s (1 : Fin 3) * 2048 + 1 * l.val = l.val; omega
  | ⟨2, _⟩ => show win0_0.index s (2 : Fin 3) * 768 + 1 * d.val = d.val; omega

theorem blk_w1 (c : Dev nD) (t : Fin cfg0.N) (e d : Fin 768) :
    (iblk m c 2 t : S768x768.Idx → EReal) (ix2 e d) = m ((c : Thread nD τ).loc main_arg2) (ix2 e d) := by
  rw [← V_main_arg2 m c]
  show V m c main_arg2 (((cfg0.win 2).blk t).view.emb (ix2 e d)) = V m c main_arg2 (ix2 e d)
  refine congrArg (V m c main_arg2) (funext fun a => Fin.ext ?_)
  obtain ⟨e0, e1⟩ := idx_w1 t
  match a with
  | ⟨0, _⟩ => show win0_2.index t (0 : Fin 2) * 768 + 1 * e.val = e.val; omega
  | ⟨1, _⟩ => show win0_2.index t (1 : Fin 2) * 768 + 1 * d.val = d.val; omega

theorem blk_w2 (c : Dev nD) (t : Fin cfg0.N) (e d : Fin 768) :
    (iblk m c 3 t : S768x768.Idx → EReal) (ix2 e d) = m ((c : Thread nD τ).loc main_arg4) (ix2 e d) := by
  rw [← V_main_arg4 m c]
  show V m c main_arg4 (((cfg0.win 3).blk t).view.emb (ix2 e d)) = V m c main_arg4 (ix2 e d)
  refine congrArg (V m c main_arg4) (funext fun a => Fin.ext ?_)
  obtain ⟨e0, e1⟩ := idx_w2 t
  match a with
  | ⟨0, _⟩ => show win0_3.index t (0 : Fin 2) * 768 + 1 * e.val = e.val; omega
  | ⟨1, _⟩ => show win0_3.index t (1 : Fin 2) * 768 + 1 * d.val = d.val; omega

theorem blk_b1 (c : Dev nD) (t : Fin cfg0.N) (u : Fin 1) (e : Fin 768) :
    (iblk m c 4 t : S1x768.Idx → EReal) (ix2 u e) = m ((c : Thread nD τ).loc main_arg3) (ix1 e) := by
  have hV : (iblk m c 4 t : S1x768.Idx → EReal) (ix2 u e) = (V m c main_v0 : S1x768.Idx → EReal) (ix2 u e) := by
    show V m c main_v0 (((cfg0.win 4).blk t).view.emb (ix2 u e)) = V m c main_v0 (ix2 u e)
    refine congrArg (V m c main_v0) (funext fun a => Fin.ext ?_)
    obtain ⟨e0, e1⟩ := idx_b1 t
    match a with
    | ⟨0, _⟩ => show win0_4.index t (0 : Fin 2) * 1 + 1 * u.val = u.val; omega
    | ⟨1, _⟩ => show win0_4.index t (1 : Fin 2) * 768 + 1 * e.val = e.val; omega
  rw [hV, row_b1 m c]
  exact shapeCast_a_1a_apply _ shapeCasts_S768_S1x768 u e

theorem blk_b2 (c : Dev nD) (t : Fin cfg0.N) (u : Fin 1) (e : Fin 768) :
    (iblk m c 5 t : S1x768.Idx → EReal) (ix2 u e) = m ((c : Thread nD τ).loc main_arg5) (ix1 e) := by
  have hV : (iblk m c 5 t : S1x768.Idx → EReal) (ix2 u e) = (V m c main_v1 : S1x768.Idx → EReal) (ix2 u e) := by
    show V m c main_v1 (((cfg0.win 5).blk t).view.emb (ix2 u e)) = V m c main_v1 (ix2 u e)
    refine congrArg (V m c main_v1) (funext fun a => Fin.ext ?_)
    obtain ⟨e0, e1⟩ := idx_b2 t
    match a with
    | ⟨0, _⟩ => show win0_5.index t (0 : Fin 2) * 1 + 1 * u.val = u.val; omega
    | ⟨1, _⟩ => show win0_5.index t (1 : Fin 2) * 768 + 1 * e.val = e.val; omega
  rw [hV, row_b2 m c]
  exact shapeCast_a_1a_apply _ shapeCasts_S768_S1x768 u e

/-! ## One point, over plain arrays -/

/-- If the blocks a projection point and its pooling point read are batch b of x1 and of x2, the whole weights and
    the bias vectors, the projection store at (r, e) is the kernel's arrangement at (b, r, e). -/
theorem point_at (p1 p2 : Vec Ideal S1x2048x768 .f32) (w1 w2 : Vec Ideal S768x768 .f32) (r1 r2 : Vec Ideal S1x768 .f32)
    (X1 X2 : (⟨3, ![16, 2048, 768]⟩ : Shape).Idx → EReal) (W1 W2 : (⟨2, ![768, 768]⟩ : Shape).Idx → EReal)
    (B1 B2 : (⟨1, ![768]⟩ : Shape).Idx → EReal) (b : Fin 16)
    (h1 : ∀ (r : Fin 2048) (d : Fin 768), p1 (ix3 (0 : Fin 1) r d) = X1 (ix3 b r d))
    (h2 : ∀ (l : Fin 2048) (d : Fin 768), p2 (ix3 (0 : Fin 1) l d) = X2 (ix3 b l d))
    (h3 : ∀ e d : Fin 768, w1 (ix2 e d) = W1 (ix2 e d)) (h4 : ∀ e d : Fin 768, w2 (ix2 e d) = W2 (ix2 e d))
    (h5 : ∀ (u : Fin 1) (e : Fin 768), r1 (ix2 u e) = B1 (ix1 e)) (h6 : ∀ (u : Fin 1) (e : Fin 768), r2 (ix2 u e) = B2 (ix1 e))
    (u : Fin 1) (r : Fin 2048) (e : Fin 768) :
    k0_pay2 p1 w1 (k0_pay1 p2 w2 r1 r2) (ix3 u r e) = Cert.Pooled.fusedAt X1 X2 W1 W2 B1 B2 b r e := by
  rw [pay2_at, pay1_at]
  unfold Cert.Pooled.fusedAt
  simp only [h1, h2, h3, h4, h5, h6]

/-! ## The output array -/

/-- The kernel's arrangement of the argument arrays, as one array. -/
def G (c : Dev nD) : S16x2048x768.Idx → EReal := fun j =>
  Cert.Pooled.fusedAt (m ((c : Thread nD τ).loc main_arg0)) (m ((c : Thread nD τ).loc main_arg1))
    (m ((c : Thread nD τ).loc main_arg2)) (m ((c : Thread nD τ).loc main_arg4))
    (m ((c : Thread nD τ).loc main_arg3)) (m ((c : Thread nD τ).loc main_arg5)) (j 0) (j 1) (j 2)

/-- What a projection point writes back is its block of that array. -/
theorem flushed_eq (c : Dev nD) (t : Fin cfg0.N) (h1 : 16 ≤ t.val) :
    (dats m 0 c).flushed 6 t = ((cfg0.win 6).blk t).view.read (Elt Ideal) (G m c) := by
  have hN : t.val < 32 := lt_of_lt_of_eq t.isLt (show cfg0.N = 32 from N_0)
  show (cfg0.win 6).cut (grid0.coords t) ((dats m 0 c).after 6 t) = _
  rw [after6]
  funext y
  obtain ⟨u, r, e, rfl⟩ : ∃ (u : Fin 1) (r : Fin 2048) (e : Fin 768), y = ix3 u r e := ⟨y 0, y 1, y 2, eq_ix3 y⟩
  show outAfter m c t (ix3 u r e) = G m c (((cfg0.win 6).blk t).view.emb (ix3 u r e))
  have hb : (⟨t.val - 16, by omega⟩ : Fin 16).val = t.val - 16 := rfl
  have hemb : ((cfg0.win 6).blk t).view.emb (ix3 u r e) = ix3 (⟨t.val - 16, by omega⟩ : Fin 16) r e := by
    funext a; apply Fin.ext
    obtain ⟨e0, e1, e2⟩ := idx_out t h1
    have hu : u.val = 0 := by omega
    match a with
    | ⟨0, _⟩ => show win0_6.index t (0 : Fin 3) * 1 + 1 * u.val = t.val - 16; omega
    | ⟨1, _⟩ => show win0_6.index t (1 : Fin 3) * 2048 + 1 * r.val = r.val; omega
    | ⟨2, _⟩ => show win0_6.index t (2 : Fin 3) * 768 + 1 * e.val = e.val; omega
  rw [hemb]
  unfold outAfter poolRow G
  exact point_at _ _ _ _ _ _ _ _ _ _ _ _ (⟨t.val - 16, by omega⟩ : Fin 16)
    (fun r d => blk_x1 m c t h1 _ hb r d)
    (fun l d => blk_x2 m c (back t) (show t.val - 16 < 16 by omega) _ hb l d)
    (fun e d => blk_w1 m c t e d) (fun e d => blk_w2 m c (back t) e d)
    (fun u e => blk_b1 m c (back t) u e) (fun u e => blk_b2 m c (back t) u e) u r e

/-- An index of the output is in point t's block exactly when each coordinate is in the block's range. -/
theorem mem_blk (t : Fin cfg0.N) (i : S16x2048x768.Idx) :
    i ∈ ((cfg0.win 6).blk t).view.set ↔ ∀ a : Fin 3, win0_6.index t a * S1x2048x768.size a ≤ (i a).val ∧ (i a).val < win0_6.index t a * S1x2048x768.size a + S1x2048x768.size a := by
  show i ∈ ((View.whole main_v2).slice (win0_6.rect t)).set ↔ _
  rw [View.set_slice_whole, Rect.mem_set_unit]
  exact Iff.rfl

/-- Batch b of the output is the block written back at point b + 16. -/
theorem cover (i : S16x2048x768.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 768 := (i 2).isLt
  have hlt : (i 0).val + 16 < cfg0.N := by rw [show cfg0.N = 32 from N_0]; omega
  refine ⟨⟨(i 0).val + 16, hlt⟩, (flush6 _).mpr (by show 16 ≤ (i 0).val + 16; omega), ?_⟩
  rw [mem_blk]
  obtain ⟨e0, e1, e2⟩ := idx_out ⟨(i 0).val + 16, hlt⟩ (by show 16 ≤ (i 0).val + 16; omega)
  have e0' : win0_6.index ⟨(i 0).val + 16, hlt⟩ (0 : Fin 3) = (i 0).val := by
    rw [e0]; show (i 0).val + 16 - 16 = (i 0).val; omega
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 2048 ≤ (i 1).val ∧ (i 1).val < win0_6.index _ (1 : Fin 3) * 2048 + 2048; omega
  | ⟨2, _⟩ => show win0_6.index _ (2 : Fin 3) * 768 ≤ (i 2).val ∧ (i 2).val < win0_6.index _ (2 : Fin 3) * 768 + 768; omega

/-- The output array after the run. -/
theorem final (c : Dev nD) : (dats m 0 c).arrAt 6 cfg0.N = G m c :=
  (dats m 0 c).arrAt_eq_of_cover 6 (G m c) (fun t hf => flushed_eq m c t ((flush6 t).mp hf)) cover

/-- The run of the idealized kernel: the result at the kernel's arrangement of the arguments, the arguments unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main (F := Ideal) m ρ)

end Cert.KernelIdeal.Result

end
-- ==== Proof.RefValue.lean ====
/-
  The reference program read at an index. Its result at batch b, row r, feature e is the row product
  x1[b, r, :] · W1[e, :] plus b1[e], plus the sum over the 2048 rows l of ( x2[b, l, :] · W2[e, :] + b2[e] )
  divided by 2048: the reference's arrangement of the mathematics module, term for term.
-/
import proofs.«151728_g82446192214446_feedfinal_392_23_alg».proof.Proof.Gen.ReferenceIdeal.Read
import proofs.«151728_g82446192214446_feedfinal_392_23_alg».proof.Proof.Pooled

noncomputable section

namespace Cert.ReferenceIdeal.RefValue

open Cert.ReferenceIdeal Cert.ReferenceIdeal.Gen Cert.ReferenceIdeal.Read Idealize.ShloMosaic Idealize.ShloMosaic.ValueIdx

variable (x0 x1 : (⟨S16x2048x768, .f32⟩ : BufTy).Contents (Elt Ideal)) (x2 : (⟨S768x768, .f32⟩ : BufTy).Contents (Elt Ideal))
  (x3 : (⟨S768, .f32⟩ : BufTy).Contents (Elt Ideal)) (x4 : (⟨S768x768, .f32⟩ : BufTy).Contents (Elt Ideal))
  (x5 : (⟨S768, .f32⟩ : BufTy).Contents (Elt Ideal))

theorem ref_at (b : Fin 16) (r : Fin 2048) (e : Fin 768) :
    val_main_v13 (F := Ideal) x0 x1 x2 x3 x4 x5 (ix3 b r e) = Cert.Pooled.plainAt x0 x1 x2 x4 x3 x5 b r e := by
  have i1 : ∀ k : Fin 768, lidx_main_v0 (ix3 b r e) k = ix3 b r k := fun k =>
    funext fun a => Fin.ext (by match a with | ⟨0, _⟩ => rfl | ⟨1, _⟩ => rfl | ⟨2, _⟩ => rfl)
  have i2 : ∀ k : Fin 768, ridx_main_v0 (ix3 b r e) k = ix2 e k := fun k =>
    funext fun a => Fin.ext (by match a with | ⟨0, _⟩ => rfl | ⟨1, _⟩ => rfl)
  have i3 : idx_main_v1 (idx_main_v2 (ix3 b r e)) = ix1 e :=
    funext fun a => Fin.ext (by match a with | ⟨0, _⟩ => rfl)
  have i4 : ∀ l : Fin 2048, idx_main_v8 (idx_main_v9 (idx_main_v12 (ix3 b r e))) l = ix3 b l e := fun l =>
    funext fun a => Fin.ext (by match a with | ⟨0, _⟩ => rfl | ⟨1, _⟩ => rfl | ⟨2, _⟩ => rfl)
  have i5 : ∀ (l : Fin 2048) (k : Fin 768), lidx_main_v4 (ix3 b l e) k = ix3 b l k := fun l k =>
    funext fun a => Fin.ext (by match a with | ⟨0, _⟩ => rfl | ⟨1, _⟩ => rfl | ⟨2, _⟩ => rfl)
  have i6 : ∀ (l : Fin 2048) (k : Fin 768), ridx_main_v4 (ix3 b l e) k = ix2 e k := fun l k =>
    funext fun a => Fin.ext (by match a with | ⟨0, _⟩ => rfl | ⟨1, _⟩ => rfl)
  have i7 : ∀ l : Fin 2048, idx_main_v5 (idx_main_v6 (ix3 b l e)) = ix1 e := fun l =>
    funext fun a => Fin.ext (by match a with | ⟨0, _⟩ => rfl)
  rw [val_main_v13_apply, val_main_v3_apply, val_main_v0_apply, val_main_v2_apply, val_main_v1_apply,
    val_main_v12_apply, val_main_v11_apply, val_main_v9_apply, val_main_v8_apply, val_main_v10_apply,
    val_main_cst_0_apply, val_main_cst_apply]
  simp only [val_main_v7_apply, val_main_v4_apply, val_main_v6_apply, val_main_v5_apply, i1, i2, i3, i4, i5, i6, i7,
    Ideal.addf_def, Ideal.hostDivf_def, Ideal.ofBits_def]
  rfl

end Cert.ReferenceIdeal.RefValue

end
-- ==== Proof.Finite.lean ====
/-
  The precondition read back: it says of each of the six argument arrays that the absolute value of every entry
  is below +inf, all of these joined by "and". On the extended reals an entry whose absolute value is below +inf is
  neither infinity, so every entry of every argument is a real number.
-/
import proofs.«151728_g82446192214446_feedfinal_392_23_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

variable [Cert.Pre_finite_inputs.Facts]

instance : Subsingleton S_.Idx := ⟨fun a b => funext fun d => d.elim0⟩

/-- An extended real whose absolute value compares below the word of +inf is a real number. -/
theorem real_of_abs_lt (x : EReal)
    (h : FloatOps.cmpf (F := Ideal) .olt (FloatOps.hostAbsf x) (FloatOps.ofBits (F := Ideal) .f32 0x7F800000#32) = 1#1) :
    ∃ v : ℝ, x = v := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  clear h
  induction x using EReal.rec with
  | bot => exfalso; revert h'; simp [Ideal.cmp]
  | coe v => exact ⟨v, rfl⟩
  | top => exfalso; revert h'; simp [Ideal.cmp]

/-- Two one-bit words whose "and" is 1 are both 1. -/
theorem and_split (p q : IVec S_ 1) (i : S_.Idx) (h : andi p q i = 1#1) : p i = 1#1 ∧ q i = 1#1 :=
  IntOp.andi_eq_one.mp h

/-- Under the precondition every entry of every argument array is a real number. -/
theorem all_real (a0 a1 : FVec Ideal S16x2048x768 .f32) (a2 : FVec Ideal S768x768 .f32) (a3 : FVec Ideal S768 .f32)
    (a4 : FVec Ideal S768x768 .f32) (a5 : FVec Ideal S768 .f32)
    (h : fn (F := Ideal) a0 a1 a2 a3 a4 a5 = fun _ => 1#1) :
    (∀ i, ∃ v : ℝ, a0 i = v) ∧ (∀ i, ∃ v : ℝ, a1 i = v) ∧ (∀ i, ∃ v : ℝ, a2 i = v)
      ∧ (∀ i, ∃ v : ℝ, a3 i = v) ∧ (∀ i, ∃ v : ℝ, a4 i = v) ∧ (∀ i, ∃ v : ℝ, a5 i = v) := by
  have h0 := congrFun h ValueIdx.ix0
  dsimp only [fn, fn_part1] at h0
  obtain ⟨h01234, h5⟩ := and_split _ _ _ h0
  obtain ⟨h0123, h4⟩ := and_split _ _ _ h01234
  obtain ⟨h012, h3⟩ := and_split _ _ _ h0123
  obtain ⟨h01, h2⟩ := and_split _ _ _ h012
  obtain ⟨h0', h1⟩ := and_split _ _ _ h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.Finite

end
-- ==== Proof.lean ====
/-
  The claim: a kernel that pools x2 over its 2048 rows first and projects the one averaged row, against a reference
  that projects every row of x2 and takes the mean afterwards.

  Both compute  x1[b, r, :] · W1[e, :] + b1[e] + mean over l of ( x2[b, l, :] · W2[e, :] + b2[e] ).
  The kernel runs on a grid of 32 points: the first sixteen pool one batch of x2 each into a row of a scratch buffer
  kept between points, the last sixteen project one batch of x1 each and add the pooled row of that batch.
  The three frames: each kernel program runs to the end under an invariant that says which scratch rows are already
  pooled (the same proof at the word level and at the ideal instance), and the reference is a straight line of host
  operations. Nothing was rewritten between the kernel and its idealization. The two idealized programs agree
  because, on arrays of real numbers, a finite sum commutes with scaling by 1/2048 and with another finite sum,
  the bias summed 2048 times and divided by 2048 is the bias, and the kernel's scale 2^-11 is exactly 1/2048; the
  precondition makes every entry of every argument a real number.
-/
import proofs.«151728_g82446192214446_feedfinal_392_23_alg».proof.Defs
import proofs.«151728_g82446192214446_feedfinal_392_23_alg».proof.Proof.Gen.Kernel
import proofs.«151728_g82446192214446_feedfinal_392_23_alg».proof.Proof.Gen.KernelIdeal
import proofs.«151728_g82446192214446_feedfinal_392_23_alg».proof.Proof.Gen.ReferenceIdeal
import proofs.«151728_g82446192214446_feedfinal_392_23_alg».proof.Proof.Gen.Pre_finite_inputs
import proofs.«151728_g82446192214446_feedfinal_392_23_alg».proof.Proof.ScratchWords
import proofs.«151728_g82446192214446_feedfinal_392_23_alg».proof.Proof.Result
import proofs.«151728_g82446192214446_feedfinal_392_23_alg».proof.Proof.RefValue
import proofs.«151728_g82446192214446_feedfinal_392_23_alg».proof.Proof.Finite
import Idealize.ShloMosaic.Adequacy
import Idealize.ShloMosaic.Init

noncomputable section

namespace Cert.Proof

open Idealize.ShloMosaic Idealize.SL.Sem Idealize.ShloMosaic.ValueIdx

theorem frame_words : Cert.frame_Kernel (hKernel := Cert.Kernel.Gen.facts) (hPre_finite_inputs := Cert.Pre_finite_inputs.Gen.facts) :=
  fun m ρ _ => Cert.Kernel.Body.frame m ρ

theorem frame_ideal : Cert.frame_KernelIdeal (hKernelIdeal := Cert.KernelIdeal.Gen.facts) (hPre_finite_inputs := Cert.Pre_finite_inputs.Gen.facts) :=
  fun m ρ _ => Cert.KernelIdeal.Body.frame m ρ

theorem frame_reference : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the arguments both idealized programs run, and the reference's result is the
    kernel's: at every index the reference's arrangement equals the kernel's, the arguments being arrays of reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  rw [(hagree c).1, (hagree c).2.1, (hagree c).2.2.1, (hagree c).2.2.2.1, (hagree c).2.2.2.2.1, (hagree c).2.2.2.2.2]
  obtain ⟨f0, f1, f2, f3, f4, f5⟩ := Cert.Finite.all_real _ _ _ _ _ _ (hpre c)
  funext j
  obtain ⟨b, r, e, rfl⟩ : ∃ (b : Fin 16) (r : Fin 2048) (e : Fin 768), j = ix3 b r e := ⟨j 0, j 1, j 2, eq_ix3 j⟩
  rw [Cert.ReferenceIdeal.RefValue.ref_at]
  exact (Cert.Pooled.fused_eq_plain _ _ _ _ _ _ f0 f1 f2 f4 f3 f5 b r e).symm

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
